-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : FVec F S64x64 .f32) (main_arg2 : FVec F S64 .f32) (main_arg3 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S64x64 : Shape := ⟨2, ![64, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x64 : Shape := ⟨2, ![1700000, 64]⟩
abbrev S5000x64 : Shape := ⟨2, ![5000, 64]⟩
abbrev S5000x1 : Shape := ⟨2, ![5000, 1]⟩
abbrev S1x64 : Shape := ⟨2, ![1, 64]⟩

abbrev nBuf : Space → Nat
  | .hbm => 66
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S2x1600000, .i32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x64, .f32⟩
  | .hbm, ⟨27, _⟩ => ⟨S100000x64, .f32⟩
  | .hbm, ⟨28, _⟩ => ⟨S100000x64, .bf16⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x64, .bf16⟩
  | .hbm, ⟨38, _⟩ => ⟨S1700000x64, .f32⟩
  | .hbm, ⟨39, _⟩ => ⟨S_, .f32⟩
  | .hbm, ⟨40, _⟩ => ⟨S100000x64, .f32⟩
  | .hbm, ⟨41, _⟩ => ⟨S1700000x1, .i32⟩
  | .hbm, ⟨42, _⟩ => ⟨S100000x64, .f32⟩
  | .hbm, ⟨43, _⟩ => ⟨S100000x1, .f32⟩
  | .hbm, ⟨44, _⟩ => ⟨S100000x64, .f32⟩
  | .hbm, ⟨45, _⟩ => ⟨S100000x64, .f32⟩
  | .hbm, ⟨46, _⟩ => ⟨S100000x1, .f32⟩
  | .hbm, ⟨47, _⟩ => ⟨S100000x64, .f32⟩
  | .hbm, ⟨48, _⟩ => ⟨S100000x64, .f32⟩
  | .hbm, ⟨49, _⟩ => ⟨S100000x64, .bf16⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .bf16⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S100000x1, .f32⟩
  | .hbm, ⟨65, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S64x64, .f32⟩
  | .local _ .vmem, ⟨5, _⟩ => ⟨S64, .f32⟩
  | .local _ .vmem, ⟨6, _⟩ => ⟨S5000x64, .f32⟩
  | .local _ .vmem, ⟨7, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_5 : Ref sig .tc := ⟨.hbm, 50, rfl⟩
abbrev main_v37 : Ref sig .tc := ⟨.hbm, 51, rfl⟩
abbrev main_v38 : Ref sig .tc := ⟨.hbm, 52, rfl⟩
abbrev main_c_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bitsLt_bf16_f32 : FTy.bits .bf16 < FTy.bits .f32
  bcast_S_S100000x64 : S_.BroadcastsInDim S100000x64 (![] : Fin 0 → Fin S100000x64.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v47) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v49) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 84
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S2x1600000, .i32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x64, .f32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S1700000x1, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x64, .f32⟩
  | .hbm, ⟨70, _⟩ => ⟨S1700000x64, .f32⟩
  | .hbm, ⟨71, _⟩ => ⟨S1700000x64, .f32⟩
  | .hbm, ⟨72, _⟩ => ⟨S_, .f32⟩
  | .hbm, ⟨73, _⟩ => ⟨S100000x64, .f32⟩
  | .hbm, ⟨74, _⟩ => ⟨S1700000x1, .i32⟩
  | .hbm, ⟨75, _⟩ => ⟨S100000x64, .f32⟩
  | .hbm, ⟨76, _⟩ => ⟨S64x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000x64, .f32⟩
  | .hbm, ⟨83, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call1_cst : Ref sig .tc := ⟨.hbm, 81, rfl⟩
abbrev main_call1_v0 : Ref sig .tc := ⟨.hbm, 82, rfl⟩
abbrev main_v61 : Ref sig .tc := ⟨.hbm, 83, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.LibEdgeSum.lean ====
/-
  Sums of extended reals over a finite set of edges, scaled by a degree factor.

  A graph convolution with symmetric normalisation sums, over the edges `e` that end at a node `d`, a message
  `a e` scaled by `s e * c`, where `c` is the factor of `d` itself. The factor of the end node is the same for
  every edge of the sum, so it may be taken out of the sum — provided multiplication by it distributes over a
  sum of EXTENDED reals, which it does when `0 ≤ c` and `c ≠ ⊤`. The factor is `1 / √(number of edges ending at d)`:
  a positive real when some edge ends at `d`, and `⊤` exactly when none does — and then the sum is empty and both
  sides are zero. So the two forms agree for every family of extended reals, with no finiteness asked of the messages.
-/
import Idealize.ShloMosaic.PureOps.Ideal

noncomputable section

namespace Cert.Lib.EdgeSum

open Idealize.ShloMosaic

/-- The word of `+0.0` denotes `0`. -/
theorem ofBits_zero : Ideal.ofBits .f32 0x00000000#32 = 0 := by
  simp [Ideal.ofBits, Ideal.ieee]

/-- The word of `1.0` denotes `1`. -/
theorem ofBits_one : Ideal.ofBits .f32 0x3F800000#32 = 1 := by
  simp [Ideal.ofBits, Ideal.ieee, -EReal.coe_mul]; norm_num

/-- A nonnegative extended real other than `⊤` scales a finite sum of extended reals term by term. -/
theorem sum_mul_of_nonneg_of_ne_top {ι : Type} (S : Finset ι) (t : ι → EReal) {c : EReal} (h0 : 0 ≤ c) (ht : c ≠ ⊤) :
    (∑ e ∈ S, t e) * c = ∑ e ∈ S, t e * c := by
  classical
  induction S using Finset.induction_on with
  | empty => simp
  | insert a S ha ih =>
    rw [Finset.sum_insert ha, Finset.sum_insert ha, EReal.right_distrib_of_nonneg_of_ne_top h0 ht, ih]

/-- A sum of ones over a finite set is its number of elements. -/
theorem sum_ones {ι : Type} (S : Finset ι) : ∑ _e ∈ S, (1 : EReal) = ((S.card : ℝ) : EReal) := by
  classical
  induction S using Finset.induction_on with
  | empty => simp
  | insert a S ha ih =>
    rw [Finset.sum_insert ha, ih, Finset.card_insert_of_notMem ha, Nat.cast_succ, EReal.coe_add, EReal.coe_one, add_comm]

/-- The degree factor of a node: the reciprocal square root of the number of edges in `S`, counted as a sum of ones
    onto zero. Either `S` is empty, or the factor is a nonnegative extended real other than `⊤`. -/
theorem rsqrt_count {ι : Type} (S : Finset ι) :
    S = ∅ ∨ (0 ≤ Ideal.rsqrt ((0 : EReal) + ∑ _e ∈ S, (1 : EReal)) ∧ Ideal.rsqrt ((0 : EReal) + ∑ _e ∈ S, (1 : EReal)) ≠ ⊤) := by
  rcases S.eq_empty_or_nonempty with h | h
  · exact Or.inl h
  · right
    have hs : (0 : EReal) + ∑ _e ∈ S, (1 : EReal) = ((S.card : ℝ) : EReal) := by
      rw [zero_add]; exact sum_ones S
    have hpos : (0 : ℝ) < S.card := by exact_mod_cast h.card_pos
    rw [hs, Ideal.rsqrt_coe, if_neg (not_lt.mpr hpos.le), if_neg hpos.ne']
    exact ⟨by exact_mod_cast (inv_nonneg.mpr (Real.sqrt_nonneg _)), EReal.coe_ne_top _⟩

/-- A factor that is nonnegative and not `⊤` may be moved from behind a sum of pre-scaled messages into each term. -/
theorem scaled_sum_of {ι : Type} (S : Finset ι) (a s : ι → EReal) {c : EReal} (h0 : 0 ≤ c) (ht : c ≠ ⊤) :
    ((0 : EReal) + ∑ e ∈ S, a e * s e) * c = (0 : EReal) + ∑ e ∈ S, a e * (s e * c) := by
  rw [zero_add, zero_add, sum_mul_of_nonneg_of_ne_top S _ h0 ht]
  exact Finset.sum_congr rfl fun e _ => mul_assoc _ _ _

/-- THE LAW OF THE NORMALISED AGGREGATION. Over the edges `S` that end at one node, whose degree factor is `c` (the
    reciprocal square root of their number): the sum of the pre-scaled messages `a e * s e`, scaled by `c` afterwards, is
    the sum of the messages each scaled by `s e * c`. -/
theorem scaled_sum {ι : Type} (S : Finset ι) (a s : ι → EReal) :
    ((0 : EReal) + ∑ e ∈ S, a e * s e) * Ideal.rsqrt ((0 : EReal) + ∑ _e ∈ S, (1 : EReal))
      = (0 : EReal) + ∑ e ∈ S, a e * (s e * Ideal.rsqrt ((0 : EReal) + ∑ _e ∈ S, (1 : EReal))) := by
  rcases rsqrt_count S with h | ⟨h0, ht⟩
  · subst h; simp
  · exact scaled_sum_of S a s h0 ht

end Cert.Lib.EdgeSum

end
-- ==== Proof.KernelBody.lean ====
/-
  The kernel body's arithmetic, read at one entry of a block.

  For a block of `5000` rows the body scales every row `p` of the aggregated features `h` by that row's factor `d (p, 0)`,
  multiplies the scaled rows by the transposed weights — entry `(p, q)` is the sum over `k` of `(h (p, k) * d (p, 0)) * w (q, k)`,
  the weights' own rows being the output columns —, adds the bias entry `b q` and takes the larger of the result and zero.
  The two roundings to a shorter float format on the way into the product are the identity on the extended reals.
-/
import proofs.«158561_j87582973100260_2_alg».proof.Proof.Gen.KernelIdeal.Skeleton
import proofs.«158561_j87582973100260_2_alg».proof.Proof.LibDense
import proofs.«158561_j87582973100260_2_alg».proof.Proof.LibEdgeSum
import Idealize.ShloMosaic.Lib.ValueIdx
import Idealize.ShloMosaic.Lib.Pipeline.Value

noncomputable section

namespace Cert.KernelBody

open Idealize.ShloMosaic Idealize.ShloMosaic.ValueIdx Cert.KernelIdeal Cert.KernelIdeal.Gen

/-- A factor column `[5000, 1]` spread over the 64 lanes, at entry `(p, k)`, is the column's entry of row `p`. -/
theorem column_spread (d : Vec Ideal S5000x1 .f32) (p : Fin 5000) (k : Fin 64) :
    broadcastTo S5000x64 (shapeCast S5000x1 d shapeCasts_S5000x1_S5000x1) broadcasts_S5000x1_S5000x64 (ix2 p k)
      = d (ix2 p (0 : Fin 1)) := by
  rw [shapeCast_self]
  refine broadcastTo_apply d broadcasts_S5000x1_S5000x64 (ix2 p k) (ix2 p (0 : Fin 1)) (fun a => ?_)
  match a with
  | ⟨0, _⟩ => show p.val = if (5000 : Nat) = 1 then 0 else p.val; rw [if_neg (by decide)]
  | ⟨1, _⟩ => show (0 : Nat) = if (1 : Nat) = 1 then 0 else k.val; rw [if_pos rfl]

/-- The transposed weights at `(k, q)` are the weights at `(q, k)`. -/
theorem weights_transposed (w : FVec Ideal S64x64 .bf16) (k q : Fin 64) :
    transpose S64x64 [1, 0] w transposes_S64x64_p1_0_S64x64 (ix2 k q) = w (ix2 q k) := by
  refine transpose_apply [1, 0] w transposes_S64x64_p1_0_S64x64 (ix2 k q) (ix2 q k) (fun b => ?_)
  match b with
  | ⟨0, _⟩ => rfl
  | ⟨1, _⟩ => rfl

/-- THE BODY AT AN ENTRY: `max ((∑ k, (h (p, k) * d (p, 0)) * w (q, k)) + b q) 0`. -/
theorem payload_apply (h : Vec Ideal S5000x64 .f32) (d : Vec Ideal S5000x1 .f32) (w : Vec Ideal S64x64 .f32)
    (b : Vec Ideal S64 .f32) (p : Fin 5000) (q : Fin 64) :
    k0_pay1 h d w b (ix2 p q)
      = max ((∑ k : Fin 64, (h (ix2 p k) * d (ix2 p (0 : Fin 1))) * w (ix2 q k)) + b (ix1 q)) 0 := by
  unfold k0_pay1
  rw [maximumf_apply, addf_apply, broadcast_apply]
  refine congrArg₂ max (congrArg₂ (· + ·) ?_ ?_) Cert.Lib.EdgeSum.ofBits_zero
  · refine (Cert.LibDense.matmul_plain _ _ (ix2 p q)).trans ?_
    unfold Cert.LibDense.prod
    refine Finset.sum_congr rfl fun k _ => ?_
    rw [weights_transposed, truncf_apply, truncf_apply, mulf_apply, column_spread, shapeCast_self]
  · exact Cert.LibDense.bias_row b shapeCasts_S64_S1x64 broadcasts_S1x64_S5000x64 (ix2 p q)

end Cert.KernelBody

end
-- ==== Proof.KernelHost.lean ====
/-
  What the host operations before the kernel leave in the arrays the kernel's windows read.

  From the edge list the program builds the start numbers `row` and end numbers `col` of the `E` edges (self-loops
  appended), counts each node's degree as a sum of ones over the edges ending at it, and takes the factor
  `dis = 1 / √degree` (zero where the degree is zero). One propagation step `spread` looks up, for every edge, the row of a
  table at the edge's start number and adds it into the row of the edge's end number. The features are propagated twice:
  scaled by `dis`, spread, scaled by `dis` twice (the end node's factor, then the next step's start factor), spread
  again — the last scaling by the end node's factor is left to the kernel, which receives the twice-spread features
  (`aggregated`) and the factors as a column (`factorColumn`).
-/
import proofs.«158561_j87582973100260_2_alg».proof.Proof.Gen.KernelIdeal.Frame
import Idealize.ShloMosaic.Lib.StableHlo.Run

noncomputable section

namespace Cert.KernelHost

open Idealize.ShloMosaic Idealize.ShloMosaic.TcCoe Idealize.SL.Sem Idealize.ShloMosaic.StableHlo Cert.KernelIdeal Cert.KernelIdeal.Gen

variable {F : FTy → Type} [FloatOps F]

/-- The start numbers of the edges, the nodes' own numbers appended as self-loops. -/
def row (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The end numbers of the edges, likewise. -/
def col (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- The end numbers as the column a sum into rows reads. -/
def colColumn (ei : IVec S2x1600000 32) : IVec S1700000x1 32 :=
  broadcastInDim S1700000x1 ![0] bcast_S1700000_S1700000x1_0 (col ei)

/-- The start numbers, negative ones wrapped, as the column a row look-up reads. -/
def rowColumn (ei : IVec S2x1600000 32) : IVec S1700000x1 32 :=
  broadcastInDim S1700000x1 ![0] bcast_S1700000_S1700000x1_0
    (select (cmpi .slt (row ei) (broadcastInDim S1700000 ![] bcast_S_S1700000 (constantI S_ 32 0#32)))
      (addi (row ei) (broadcastInDim S1700000 ![] bcast_S_S1700000 (constantI S_ 32 100000#32))) (row ei))

/-- The degrees: ones summed into the end nodes, onto zeros. -/
def degree (ei : IVec S2x1600000 32) : FVec F S100000 .f32 :=
  Host.scatterAdd scatter_S100000_S1700000x1_S1700000_n_0_0_1
    (broadcastInDim S100000 ![] bcast_S_S100000 (constant S_ .f32 0x00000000#32)) (colColumn ei)
    (broadcastInDim S1700000 ![] bcast_S_S1700000 (constant S_ .f32 0x3F800000#32))

/-- The factors `1 / √degree`, zero where the degree is not positive. -/
def factor (ei : IVec S2x1600000 32) : FVec F S100000 .f32 :=
  select (cmpf .ogt (degree (F := F) ei) (broadcastInDim S100000 ![] bcast_S_S100000 (constant S_ .f32 0x00000000#32)))
    (Host.rsqrt (degree (F := F) ei)) (broadcastInDim S100000 ![] bcast_S_S100000 (id (constant S_ .f32 0x00000000#32)))

/-- The factors repeated along each row of a `[N, 64]` table. -/
def factorRows (ei : IVec S2x1600000 32) : FVec F S100000x64 .f32 :=
  broadcastInDim S100000x64 ![0, 1] bcast_S100000x1_S100000x64_0_1
    (broadcastInDim S100000x1 ![0] bcast_S100000_S100000x1_0 (factor (F := F) ei))

/-- One propagation step: the table's rows looked up at the edges' start numbers (through a shorter float format, which
    changes nothing on the extended reals), summed into the rows of the edges' end numbers. -/
def spread (ei : IVec S2x1600000 32) (p : FVec F S100000x64 .f32) : FVec F S100000x64 .f32 :=
  Host.scatterAdd scatter_S100000x64_S1700000x1_S1700000x64_1_0_0_1
    (broadcastInDim S100000x64 ![] bcast_S_S100000x64 (constant S_ .f32 0x00000000#32)) (colColumn ei)
    (extf .f32 (Host.gather gather_S100000x64_S1700000x1_S1700000x64_1_0_n_n_0_1_164 (truncf .bf16 p bitsLt_bf16_f32) (rowColumn ei))
      bitsLt_bf16_f32)

/-- The features after both propagation steps, the last end-node scaling not yet applied. -/
def aggregated (x : FVec F S100000x64 .f32) (ei : IVec S2x1600000 32) : FVec F S100000x64 .f32 :=
  spread ei (mulf (factorRows (F := F) ei) (mulf (factorRows (F := F) ei) (spread ei (mulf (factorRows (F := F) ei) x))))

/-- The factors as a column `[N, 1]`. -/
def factorColumn (ei : IVec S2x1600000 32) : FVec F S100000x1 .f32 :=
  shapeCast _ (factor (F := F) ei) shapeCasts_S100000_S100000x1

variable (m : (ℓ : Loc nD τ sig) → Buf (Elt F) ℓ)

set_option maxRecDepth 200000 in
set_option maxHeartbeats 4000000 in
/-- The kernel's first window reads the twice-propagated features. -/
theorem V_aggregated (c : Dev nD) :
    (V m c main_v47 : S100000x64.Idx → F .f32)
      = aggregated (m ((c : Thread nD τ).loc main_arg0)) (m ((c : Thread nD τ).loc main_arg3)) := by
  dsimp only [V]
  simp only [hostOps0, hostOps0_1, hostOps0_2, List.flatten_cons, List.flatten_nil, List.append_nil, List.cons_append,
    List.nil_append]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxRecDepth 200000 in
set_option maxHeartbeats 4000000 in
/-- Its second window reads the factors as a column. -/
theorem V_factorColumn (c : Dev nD) :
    (V m c main_v48 : S100000x1.Idx → F .f32) = factorColumn (F := F) (m ((c : Thread nD τ).loc main_arg3)) := by
  dsimp only [V]
  simp only [hostOps0, hostOps0_1, hostOps0_2, List.flatten_cons, List.flatten_nil, List.append_nil, List.cons_append,
    List.nil_append]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

end Cert.KernelHost

end
-- ==== Proof.LibRows.lean ====
/-
  Rows of a table gathered at, and accumulated into, integer row numbers.

  `x[idx]` of a table `x : [N, C]` (or `[N]`) at row numbers `idx : [E, 1]` reads, for edge `e`, the row whose number is
  `idx[e, 0]` read as a signed integer and clamped into `[0, N − 1]` (`rowOf`). A `segment_sum` of messages `upd : [E, C]`
  (or `[E]`) at row numbers `idx` adds, into row `d`, the messages of exactly those edges `e` whose number `idx[e, 0]`, read
  signed and NOT clamped, is `d` (`edgesInto`): an edge whose number is outside `[0, N)` is dropped. The three sums of
  one program — onto `[N]`, onto `[N, C]` for each width — run over the SAME set of edges, and for an edge of that set the
  clamped row is `d` itself.
-/
import Idealize.ShloMosaic.PureOps.Ideal
import Idealize.ShloMosaic.Lib.ValueIdx

noncomputable section

namespace Cert.Lib.Rows

open Idealize.ShloMosaic Idealize.ShloMosaic.ValueIdx

/-- The row a gather's start index selects: the word read signed, clamped into `[0, N − 1]`. -/
def rowOf (N : Nat) (hN : 0 < N) {w : Nat} (v : BitVec w) : Fin N := ⟨min v.toInt.toNat (N - 1), by omega⟩

/-- The edges a scatter sends to row `d`: those whose row number, read signed, is `d`. -/
def edgesInto {N E w : Nat} (idx : IVec ⟨2, ![E, 1]⟩ w) (d : Fin N) : Finset (Fin E) :=
  Finset.univ.filter fun e => (idx (ix2 e (0 : Fin 1))).toInt = (d.val : Int)

theorem mem_edgesInto {N E w : Nat} (idx : IVec ⟨2, ![E, 1]⟩ w) (d : Fin N) (e : Fin E) :
    e ∈ edgesInto idx d ↔ (idx (ix2 e (0 : Fin 1))).toInt = (d.val : Int) := by
  simp [edgesInto]

/-- For an edge sent to row `d`, the clamped row of the same number is `d`. -/
theorem rowOf_of_toInt {N : Nat} (hN : 0 < N) {w : Nat} (v : BitVec w) (d : Fin N) (h : v.toInt = (d.val : Int)) :
    rowOf N hN v = d := by
  apply Fin.ext
  show min v.toInt.toNat (N - 1) = d.val
  rw [h, Int.toNat_natCast]
  have := d.isLt
  omega

/-! ## Gathers -/

/-- The dimension numbers of `x[idx]` for a table `[N, C]` at row numbers `[E, 1]`. -/
abbrev gatherRowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A gathered row, read at edge `e` and column `k`: the table at the clamped row of `idx[e, 0]`, column `k`. -/
theorem gatherRows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRowsDims N E C wf) x idx (ix2 e k) = x (ix2 (rowOf N hN (idx (ix2 e (0 : Fin 1)))) k) := by
  unfold Host.gather
  congr 1
  funext a
  refine Fin.ext ?_
  match a with
  | ⟨0, _⟩ =>
    show (gatherRowsDims N E C wf).start (ix2 e k) idx 0 + (gatherRowsDims N E C wf).batchCoord (ix2 e k) 0
      + (gatherRowsDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e k) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e k) idx 1 + (gatherRowsDims N E C wf).batchCoord (ix2 e k) 1
      + (gatherRowsDims N E C wf).offCoord (ix2 e k) 1 = k.val
    rw [GatherDims.batchCoord_eq_zero _ _ _ List.not_mem_nil]
    have hs : (gatherRowsDims N E C wf).start (ix2 e k) idx 1 = 0 := by
      unfold GatherDims.start
      rw [dif_neg (show (1 : Fin 2) ∉ ([0] : List (Fin 2)) by decide)]
    rw [hs]
    have ho : (gatherRowsDims N E C wf).offCoord (ix2 e k) 1 = k.val := by
      unfold GatherDims.offCoord
      rw [dif_pos ((GatherDims.mem_sKept _ _).mpr ⟨(show (1 : Fin 2) ∉ ([0] : List (Fin 2)) by decide), List.not_mem_nil⟩)]
      rfl
    rw [ho]
    omega

/-- The dimension numbers of `x[idx]` for a flat table `[N]` at row numbers `[E, 1]`. -/
abbrev gatherEltsDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A gathered element, read at edge `e`: the table at the clamped row of `idx[e, 0]`. -/
theorem gatherElts_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherEltsDims N E wf) x idx (ix1 e) = x (ix1 (rowOf N hN (idx (ix2 e (0 : Fin 1))))) := by
  unfold Host.gather
  congr 1
  funext a
  obtain rfl : a = 0 := Subsingleton.elim _ _
  refine Fin.ext ?_
  show (gatherEltsDims N E wf).start (ix1 e) idx 0 + (gatherEltsDims N E wf).batchCoord (ix1 e) 0
    + (gatherEltsDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherEltsDims N E wf).startIndexMap from List.mem_singleton.mpr rfl)]
  have hsi : (gatherEltsDims N E wf).siIdx (ix1 e) ⟨List.idxOf (0 : Fin 1) (gatherEltsDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Accumulating scatters -/

/-- An axis is kept exactly when it is not listed. -/
theorem mem_kept {s : Shape} (axes : List (Fin s.rank)) (a : Fin s.rank) : a ∈ s.kept axes ↔ a ∉ axes := by
  simp [Shape.kept, List.mem_filter, List.mem_finRange]

/-- The dimension numbers of a `segment_sum` of rows `[E, C]` into `[N, C]` at row numbers `[E, 1]`. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section ScatterRows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis an update starts at its edge's row number, read signed. -/
theorem scatterRows_start0 : (scatterRowsDims N E C wf).start (ix2 e k) idx 0 = (idx (ix2 e (0 : Fin 1))).toInt := by
  unfold ScatterDims.start
  rw [dif_pos (show (0 : Fin 2) ∈ (scatterRowsDims N E C wf).scatterDimsToOperandDims from List.mem_singleton.mpr rfl)]
  have hsi : (scatterRowsDims N E C wf).siIdx (ix2 e k) ⟨List.idxOf (0 : Fin 2) (scatterRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero … -/
theorem scatterRows_start1 : (scatterRowsDims N E C wf).start (ix2 e k) idx 1 = 0 := by
  unfold ScatterDims.start
  rw [dif_neg (show (1 : Fin 2) ∉ ([0] : List (Fin 2)) by decide)]

/-- … the row axis has no window coordinate … -/
theorem scatterRows_window0 : (scatterRowsDims N E C wf).window (ix2 e k) 0 = 0 := by
  unfold ScatterDims.window
  rw [dif_neg (fun h => ((mem_kept _ _).mp h) (List.mem_singleton.mpr rfl))]

/-- … and the column axis has the update's column. -/
theorem scatterRows_window1 : (scatterRowsDims N E C wf).window (ix2 e k) 1 = k.val := by
  unfold ScatterDims.window
  rw [dif_pos ((mem_kept _ _).mpr (show (1 : Fin 2) ∉ ([0] : List (Fin 2)) by decide))]
  rfl

/-- WHERE AN UPDATE LANDS: update `(e, k)` lands on element `(d, k')` exactly when edge `e`'s row number, read signed,
    is `d` and the columns agree. -/
theorem scatterRows_resultIdx_iff (d : Fin N) (k' : Fin C) :
    (scatterRowsDims N E C wf).resultIdx? (ix2 e k) idx = some (ix2 d k')
      ↔ (idx (ix2 e (0 : Fin 1))).toInt = (d.val : Int) ∧ k = k' := by
  unfold ScatterDims.resultIdx?
  constructor
  · intro h
    by_cases hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a
    · rw [dif_pos hb] at h
      have hf := Option.some.inj h
      have h0 : ((scatterRowsDims N E C wf).start (ix2 e k) idx 0 + ((scatterRowsDims N E C wf).window (ix2 e k) 0 : Nat)).toNat = d.val :=
        congrArg Fin.val (congrFun hf 0)
      have h1 : ((scatterRowsDims N E C wf).start (ix2 e k) idx 1 + ((scatterRowsDims N E C wf).window (ix2 e k) 1 : Nat)).toNat = k'.val :=
        congrArg Fin.val (congrFun hf 1)
      have hb0 := (hb 0).1
      rw [scatterRows_start0, scatterRows_window0] at h0 hb0
      rw [scatterRows_start1, scatterRows_window1] at h1
      exact ⟨by omega, Fin.ext (by omega)⟩
    · rw [dif_neg hb] at h
      exact absurd h (by simp)
  · rintro ⟨hv, rfl⟩
    have hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a := by
      intro a
      match a with
      | ⟨0, _⟩ =>
        show 0 ≤ (scatterRowsDims N E C wf).start (ix2 e k) idx 0 + ((scatterRowsDims N E C wf).window (ix2 e k) 0 : Nat)
          ∧ (scatterRowsDims N E C wf).start (ix2 e k) idx 0 + ((scatterRowsDims N E C wf).window (ix2 e k) 0 : Nat) < (N : Int)
        rw [scatterRows_start0, scatterRows_window0, hv]
        have := d.isLt
        omega
      | ⟨1, _⟩ =>
        show 0 ≤ (scatterRowsDims N E C wf).start (ix2 e k) idx 1 + ((scatterRowsDims N E C wf).window (ix2 e k) 1 : Nat)
          ∧ (scatterRowsDims N E C wf).start (ix2 e k) idx 1 + ((scatterRowsDims N E C wf).window (ix2 e k) 1 : Nat) < (C : Int)
        rw [scatterRows_start1, scatterRows_window1]
        have := k.isLt
        omega
    rw [dif_pos hb]
    refine congrArg some (funext fun a => Fin.ext ?_)
    match a with
    | ⟨0, _⟩ =>
      show ((scatterRowsDims N E C wf).start (ix2 e k) idx 0 + ((scatterRowsDims N E C wf).window (ix2 e k) 0 : Nat)).toNat = d.val
      rw [scatterRows_start0, scatterRows_window0, hv]
      omega
    | ⟨1, _⟩ =>
      show ((scatterRowsDims N E C wf).start (ix2 e k) idx 1 + ((scatterRowsDims N E C wf).window (ix2 e k) 1 : Nat)).toNat = k.val
      rw [scatterRows_start1, scatterRows_window1]
      omega

/-- A `segment_sum` into `[N, C]`, read at `(d, k)`: what was there plus the messages, at column `k`, of the edges sent to
    row `d`. -/
theorem scatterAddRows_apply (x : (⟨2, ![N, C]⟩ : Shape).Idx → EReal) (upd : (⟨2, ![E, C]⟩ : Shape).Idx → EReal) (d : Fin N) :
    Ideal.hostScatterAdd (scatterRowsDims N E C wf) x idx upd (ix2 d k) = x (ix2 d k) + ∑ e ∈ edgesInto idx d, upd (ix2 e k) := by
  unfold Ideal.hostScatterAdd
  congr 1
  have key : ∀ j : (⟨2, ![E, C]⟩ : Shape).Idx, (scatterRowsDims N E C wf).resultIdx? j idx = some (ix2 d k) →
      (idx (ix2 (j 0) (0 : Fin 1))).toInt = (d.val : Int) ∧ j = ix2 (j 0) k := by
    intro j hj
    have h := (scatterRows_resultIdx_iff wf idx (j 0) (j 1) d k).mp
      ((congrArg (fun q => (scatterRowsDims N E C wf).resultIdx? q idx) (eq_ix2 j)).symm.trans hj)
    exact ⟨h.1, (eq_ix2 j).trans (congrArg (fun q : Fin C => (ix2 (j 0) q : (⟨2, ![E, C]⟩ : Shape).Idx)) h.2)⟩
  refine Finset.sum_bij' (fun j _ => j 0) (fun e _ => ix2 e k) ?_ ?_ ?_ ?_ ?_
  · intro j hj
    exact (mem_edgesInto idx d (j 0)).mpr (key j (Finset.mem_filter.mp hj).2).1
  · intro e he
    exact Finset.mem_filter.mpr ⟨Finset.mem_univ _,
      (scatterRows_resultIdx_iff wf idx e k d k).mpr ⟨(mem_edgesInto idx d e).mp he, rfl⟩⟩
  · intro j hj
    exact (key j (Finset.mem_filter.mp hj).2).2.symm
  · intro e _
    rfl
  · intro j hj
    exact congrArg upd (key j (Finset.mem_filter.mp hj).2).2

end ScatterRows

/-- The dimension numbers of a `segment_sum` of elements `[E]` into `[N]` at row numbers `[E, 1]`. -/
abbrev scatterEltsDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section ScatterElts
variable {N E w : Nat} (wf : ScatterDims.WF ⟨1, ![N]⟩ ⟨2, ![E, 1]⟩ ⟨1, ![E]⟩ [] [0] [0] 1)
  (idx : IVec ⟨2, ![E, 1]⟩ w) (e : Fin E)

theorem scatterElts_start0 : (scatterEltsDims N E wf).start (ix1 e) idx 0 = (idx (ix2 e (0 : Fin 1))).toInt := by
  unfold ScatterDims.start
  rw [dif_pos (show (0 : Fin 1) ∈ (scatterEltsDims N E wf).scatterDimsToOperandDims from List.mem_singleton.mpr rfl)]
  have hsi : (scatterEltsDims N E wf).siIdx (ix1 e) ⟨List.idxOf (0 : Fin 1) (scatterEltsDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatterElts_window0 : (scatterEltsDims N E wf).window (ix1 e) 0 = 0 := by
  unfold ScatterDims.window
  rw [dif_neg (fun h => ((mem_kept _ _).mp h) (List.mem_singleton.mpr rfl))]

/-- Update `e` lands on element `d` exactly when edge `e`'s row number, read signed, is `d`. -/
theorem scatterElts_resultIdx_iff (d : Fin N) :
    (scatterEltsDims N E wf).resultIdx? (ix1 e) idx = some (ix1 d) ↔ (idx (ix2 e (0 : Fin 1))).toInt = (d.val : Int) := by
  unfold ScatterDims.resultIdx?
  constructor
  · intro h
    by_cases hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a
    · rw [dif_pos hb] at h
      have hf := Option.some.inj h
      have h0 : ((scatterEltsDims N E wf).start (ix1 e) idx 0 + ((scatterEltsDims N E wf).window (ix1 e) 0 : Nat)).toNat = d.val :=
        congrArg Fin.val (congrFun hf 0)
      have hb0 := (hb 0).1
      rw [scatterElts_start0, scatterElts_window0] at h0 hb0
      omega
    · rw [dif_neg hb] at h
      exact absurd h (by simp)
  · intro hv
    have hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a := by
      intro a
      match a with
      | ⟨0, _⟩ =>
        show 0 ≤ (scatterEltsDims N E wf).start (ix1 e) idx 0 + ((scatterEltsDims N E wf).window (ix1 e) 0 : Nat)
          ∧ (scatterEltsDims N E wf).start (ix1 e) idx 0 + ((scatterEltsDims N E wf).window (ix1 e) 0 : Nat) < (N : Int)
        rw [scatterElts_start0, scatterElts_window0, hv]
        have := d.isLt
        omega
    rw [dif_pos hb]
    refine congrArg some (funext fun a => Fin.ext ?_)
    match a with
    | ⟨0, _⟩ =>
      show ((scatterEltsDims N E wf).start (ix1 e) idx 0 + ((scatterEltsDims N E wf).window (ix1 e) 0 : Nat)).toNat = d.val
      rw [scatterElts_start0, scatterElts_window0, hv]
      omega

/-- A `segment_sum` into `[N]`, read at `d`: what was there plus the messages of the edges sent to row `d`. -/
theorem scatterAddElts_apply (x : (⟨1, ![N]⟩ : Shape).Idx → EReal) (upd : (⟨1, ![E]⟩ : Shape).Idx → EReal) (d : Fin N) :
    Ideal.hostScatterAdd (scatterEltsDims N E wf) x idx upd (ix1 d) = x (ix1 d) + ∑ e ∈ edgesInto idx d, upd (ix1 e) := by
  unfold Ideal.hostScatterAdd
  congr 1
  refine Finset.sum_bij' (fun j _ => j 0) (fun e _ => ix1 e) ?_ ?_ ?_ ?_ ?_
  · intro j hj
    exact (mem_edgesInto idx d (j 0)).mpr ((scatterElts_resultIdx_iff wf idx (j 0) d).mp
      ((congrArg (fun q => (scatterEltsDims N E wf).resultIdx? q idx) (eq_ix1 j)).symm.trans (Finset.mem_filter.mp hj).2))
  · intro e he
    exact Finset.mem_filter.mpr ⟨Finset.mem_univ _, (scatterElts_resultIdx_iff wf idx e d).mpr ((mem_edgesInto idx d e).mp he)⟩
  · intro j _
    exact (eq_ix1 j).symm
  · intro e _
    rfl
  · intro j _
    exact congrArg upd (eq_ix1 j)

end ScatterElts

/-! ## Row numbers made nonnegative

`x[idx]` first turns a negative row number `v` into `v + N` (python's indexing from the end) and then gathers. For an edge
whose number, read signed, is a row `d` of the table, nothing changes. -/

/-- A row number that is a row of the table is not negative, so the python-style wrap leaves it alone. -/
theorem wrap_of_toInt (v c : BitVec 32) (d : Nat) (h : v.toInt = (d : Int)) :
    Scalar.select (IntOp.cmpi .slt v 0#32) (IntOp.addi v c) v = v := by
  have h0 : IntOp.cmpi .slt v 0#32 = 0#1 := by
    have hlt : ¬ v.toInt < 0 := by rw [h]; omega
    simp [IntOp.cmpi, BitVec.slt, hlt]
  rw [h0]
  exact if_neg (by decide)

end Cert.Lib.Rows

end
-- ==== Proof.Graph.lean ====
/-
  The graph the two programs share, read off the edge list `ei : [2, E₀]` of integer node numbers.

  Both programs append a self-loop per node (node numbers `0 … N − 1`) to the two rows of `ei`, which gives `E = E₀ + N`
  edges with a start number `row e` and an end number `col e`. A sum "into node `i`" runs over `ends i`: the edges whose
  end number, read as a signed integer, is exactly `i` (an end number outside `[0, N)` sends its edge nowhere). A row looked
  up "at the start of `e`" is the row whose number is `row e`, wrapped python-style if negative and clamped into
  `[0, N − 1]`: `src e`; the same look-up with the end number is `dst e`. The degree of `i` is the number of edges in
  `ends i`, counted as a sum of ones onto zero, and the node's factor `dis i` is `1 / √degree` where the degree is positive
  and `0` elsewhere.

  Two facts carry the equivalence: for an edge of `ends i` the looked-up end node IS `i` (its number is in range, so
  neither the wrap nor the clamp moves it); and where `ends i` is not empty, `dis i` is a nonnegative extended real other
  than `⊤`.
-/
import proofs.«158561_j87582973100260_2_alg».proof.Proof.RefRead
import proofs.«158561_j87582973100260_2_alg».proof.Proof.LibRows
import proofs.«158561_j87582973100260_2_alg».proof.Proof.LibEdgeSum

noncomputable section

namespace Cert.Graph

open Idealize.ShloMosaic Idealize.ShloMosaic.ValueIdx Cert.ReferenceIdeal Cert.ReferenceIdeal.ReadP Cert.Lib.Rows

/-- The edge list as the programs receive it. -/
abbrev EdgeList : Type := IVec S2x1600000 32

/-- The column of end numbers, one per edge, self-loops appended. -/
def colI (ei : EdgeList) : IVec ⟨2, ![1700000, 1]⟩ 32 := val_main_v41 (F := Ideal) ei
/-- The column of start numbers, negative ones wrapped. -/
def rowI (ei : EdgeList) : IVec ⟨2, ![1700000, 1]⟩ 32 := val_main_v36 (F := Ideal) ei
/-- The column of end numbers, negative ones wrapped (what a look-up by end number reads). -/
def colW (ei : EdgeList) : IVec ⟨2, ![1700000, 1]⟩ 32 := val_main_v27 (F := Ideal) ei

/-- The edges that end at node `i`. -/
def ends (ei : EdgeList) (i : Fin 100000) : Finset (Fin 1700000) := edgesInto (colI ei) i
/-- The node whose row a look-up by edge `e`'s start number reads. -/
def src (ei : EdgeList) (e : Fin 1700000) : Fin 100000 := rowOf 100000 (by norm_num) (rowI ei (ix2 e (0 : Fin 1)))
/-- The node whose row a look-up by edge `e`'s end number reads. -/
def dst (ei : EdgeList) (e : Fin 1700000) : Fin 100000 := rowOf 100000 (by norm_num) (colW ei (ix2 e (0 : Fin 1)))
/-- The degree factor of node `i`. -/
def dis (ei : EdgeList) (i : Fin 100000) : EReal := val_main_v14 (F := Ideal) ei (ix1 i)

/-- For an edge that ends at `i`, the look-up by its end number reads node `i`. -/
theorem dst_of_mem (ei : EdgeList) (i : Fin 100000) (e : Fin 1700000) (he : e ∈ ends ei i) : dst ei e = i := by
  have h : (colI ei (ix2 e (0 : Fin 1))).toInt = (i.val : Int) := (mem_edgesInto (colI ei) i e).mp he
  have h6 : val_main_v6 (F := Ideal) ei (idx_main_v27 (ix2 e (0 : Fin 1))) = colI ei (ix2 e (0 : Fin 1)) := by
    unfold colI; rw [val_main_v41_apply]
  unfold dst colW
  rw [val_main_v27_apply, val_main_v26_apply, val_main_v23_apply, val_main_v25_apply, val_main_v22_apply, val_main_c_4_apply, h6,
    wrap_of_toInt _ _ i.val h]
  exact rowOf_of_toInt _ _ i h

/-- The program's record of the degree sum is a sum of elements into `[N]` at an `[E, 1]` column of node numbers. -/
theorem degree_dims : scatter_S100000_S1700000x1_S1700000_n_0_0_1
    = scatterEltsDims 100000 1700000 (scatter_S100000_S1700000x1_S1700000_n_0_0_1).wf := rfl

/-- The degrees as that sum: ones, one per edge, summed into the end nodes, onto zeros. -/
theorem degree_def (ei : EdgeList) :
    val_main_v10 (F := Ideal) ei
      = Ideal.hostScatterAdd (scatterEltsDims 100000 1700000 (scatter_S100000_S1700000x1_S1700000_n_0_0_1).wf)
          (val_main_v8 (F := Ideal)) (colI ei) (val_main_v7 (F := Ideal)) := rfl

/-- The degree of node `i`: a sum of ones over the edges that end at it, onto zero. -/
theorem degree_eq (ei : EdgeList) (i : Fin 100000) :
    val_main_v10 (F := Ideal) ei (ix1 i) = (0 : EReal) + ∑ _e ∈ ends ei i, (1 : EReal) := by
  refine (congrFun (degree_def ei) (ix1 i)).trans ?_
  refine (scatterAddElts_apply (scatter_S100000_S1700000x1_S1700000_n_0_0_1).wf (colI ei) (val_main_v8 (F := Ideal))
    (val_main_v7 (F := Ideal)) i).trans ?_
  refine congrArg₂ (· + ·) ?_ (Finset.sum_congr rfl fun e _ => ?_)
  · rw [val_main_v8_apply, val_main_cst_0_apply, Ideal.ofBits_def, Cert.Lib.EdgeSum.ofBits_zero]
  · rw [val_main_v7_apply, val_main_cst_apply, Ideal.ofBits_def, Cert.Lib.EdgeSum.ofBits_one]

/-- Where some edge ends at `i`, the node's factor is a nonnegative extended real other than `⊤`. -/
theorem dis_ok (ei : EdgeList) (i : Fin 100000) (hne : (ends ei i).Nonempty) : 0 ≤ dis ei i ∧ dis ei i ≠ ⊤ := by
  unfold dis
  rw [val_main_v14_apply, val_main_v13_apply, Ideal.hostUnary_rsqrt_def, degree_eq, val_main_call0_v1_apply,
    val_main_call0_v0_apply, val_main_cst_2_apply, Ideal.ofBits_def, Cert.Lib.EdgeSum.ofBits_zero]
  unfold Scalar.select
  split
  · rcases Cert.Lib.EdgeSum.rsqrt_count (ends ei i) with h | h
    · exact absurd h hne.ne_empty
    · exact h
  · exact ⟨le_refl _, EReal.zero_ne_top⟩

end Cert.Graph

end
-- ==== Proof.LibHops.lean ====
/-
  A two-hop graph convolution with symmetric degree normalisation, followed by a dense layer and a rectifier, written
  two ways on the extended reals.

  The data: for every node `i` the finite set `S i` of edges that end at `i`; for every edge `e` the node `src e` it
  starts from and the node `dst e` its end is looked up at; a factor `dis i` per node; features `h : [N, C]`.

  * The edge-weighted hop sums, over the edges ending at `i`, the start node's row scaled by the weight
    `dis (src e) * dis (dst e)` of the edge.
  * The pre-scaled hop first scales every row `j` by `dis j`, sums the start nodes' scaled rows over the edges ending at
    `i`, and scales the sum by `dis i` afterwards.

  For an edge of `S i` the end node IS `i`, so its factor is the same for every term of the sum and may be moved across
  the sum: multiplication by `c` distributes over a sum of extended reals when `0 ≤ c` and `c ≠ ⊤`, and when no edge ends at
  `i` both sums are empty. Nothing is asked of the features: they may be infinite.
-/
import proofs.«158561_j87582973100260_2_alg».proof.Proof.LibEdgeSum
import Idealize.ShloMosaic.Lib.ValueIdx

noncomputable section

namespace Cert.Lib.Hops

open Idealize.ShloMosaic Idealize.ShloMosaic.ValueIdx

/-- A factor of the end node moved from behind the sum into every term; for an empty sum both sides are zero. -/
theorem scale_in {ι : Type} (S : Finset ι) (s a : ι → EReal) (c : EReal) (h : S.Nonempty → 0 ≤ c ∧ c ≠ ⊤) :
    ((0 : EReal) + ∑ e ∈ S, s e * a e) * c = (0 : EReal) + ∑ e ∈ S, (s e * c) * a e := by
  rcases S.eq_empty_or_nonempty with he | hne
  · subst he; simp
  · obtain ⟨h0, ht⟩ := h hne
    rw [zero_add, zero_add, Cert.Lib.EdgeSum.sum_mul_of_nonneg_of_ne_top S _ h0 ht]
    exact Finset.sum_congr rfl fun e _ => mul_right_comm _ _ _

variable {N E C : ℕ}

/-- The edge-weighted hop: row `i` is the sum over the edges ending at `i` of the start node's row times the edge's weight. -/
def hopW (S : Fin N → Finset (Fin E)) (src dst : Fin E → Fin N) (dis : Fin N → EReal)
    (h : (⟨2, ![N, C]⟩ : Shape).Idx → EReal) : (⟨2, ![N, C]⟩ : Shape).Idx → EReal :=
  fun j => 0 + ∑ e ∈ S (j 0), (dis (src e) * dis (dst e)) * h (ix2 (src e) (j 1))

/-- The sum, over the edges ending at `i`, of the start nodes' rows each pre-scaled by its own node's factor. -/
def hopP (S : Fin N → Finset (Fin E)) (src : Fin E → Fin N) (dis : Fin N → EReal)
    (h : (⟨2, ![N, C]⟩ : Shape).Idx → EReal) : (⟨2, ![N, C]⟩ : Shape).Idx → EReal :=
  fun j => 0 + ∑ e ∈ S (j 0), dis (src e) * h (ix2 (src e) (j 1))

/-- The dense layer with the rectifier on rows `a`: `max (a · Wᵀ + b) 0`. -/
def dense {K D : ℕ} (a : (⟨2, ![N, K]⟩ : Shape).Idx → EReal) (W : (⟨2, ![D, K]⟩ : Shape).Idx → EReal)
    (b : (⟨1, ![D]⟩ : Shape).Idx → EReal) : (⟨2, ![N, D]⟩ : Shape).Idx → EReal :=
  fun j => max ((∑ k : Fin K, a (ix2 (j 0) k) * W (ix2 (j 1) k)) + b (ix1 (j 1))) 0

/-- The three, at an entry given by its coordinates. -/
theorem hopW_ix2 (S : Fin N → Finset (Fin E)) (src dst : Fin E → Fin N) (dis : Fin N → EReal)
    (h : (⟨2, ![N, C]⟩ : Shape).Idx → EReal) (i : Fin N) (k : Fin C) :
    hopW S src dst dis h (ix2 i k) = 0 + ∑ e ∈ S i, (dis (src e) * dis (dst e)) * h (ix2 (src e) k) := rfl

theorem hopP_ix2 (S : Fin N → Finset (Fin E)) (src : Fin E → Fin N) (dis : Fin N → EReal)
    (h : (⟨2, ![N, C]⟩ : Shape).Idx → EReal) (i : Fin N) (k : Fin C) :
    hopP S src dis h (ix2 i k) = 0 + ∑ e ∈ S i, dis (src e) * h (ix2 (src e) k) := rfl

theorem dense_ix2 {K D : ℕ} (a : (⟨2, ![N, K]⟩ : Shape).Idx → EReal) (W : (⟨2, ![D, K]⟩ : Shape).Idx → EReal)
    (b : (⟨1, ![D]⟩ : Shape).Idx → EReal) (i : Fin N) (o : Fin D) :
    dense a W b (ix2 i o) = max ((∑ k : Fin K, a (ix2 i k) * W (ix2 o k)) + b (ix1 o)) 0 := rfl

section
variable (S : Fin N → Finset (Fin E)) (src dst : Fin E → Fin N) (dis : Fin N → EReal)
  (hdst : ∀ i e, e ∈ S i → dst e = i) (hdis : ∀ i, (S i).Nonempty → 0 ≤ dis i ∧ dis i ≠ ⊤)
include hdst hdis

/-- The pre-scaled sum scaled afterwards by the end node's factor is the edge-weighted hop. -/
theorem hopP_mul (h : (⟨2, ![N, C]⟩ : Shape).Idx → EReal) (j : (⟨2, ![N, C]⟩ : Shape).Idx) :
    hopP S src dis h j * dis (j 0) = hopW S src dst dis h j := by
  unfold hopP hopW
  rw [scale_in (S (j 0)) (fun e => dis (src e)) (fun e => h (ix2 (src e) (j 1))) (dis (j 0)) (hdis (j 0))]
  refine congrArg ((0 : EReal) + ·) (Finset.sum_congr rfl fun e he => ?_)
  rw [hdst (j 0) e he]

/-- The same with the factor in front. -/
theorem mul_hopP (h : (⟨2, ![N, C]⟩ : Shape).Idx → EReal) (j : (⟨2, ![N, C]⟩ : Shape).Idx) :
    dis (j 0) * hopP S src dis h j = hopW S src dst dis h j := by
  rw [mul_comm]; exact hopP_mul S src dst dis hdst hdis h j

/-- TWO HOPS. Pre-scale, sum, post-scale, pre-scale again, sum — with the last post-scaling still to be done — is, once
    that last factor is applied, two edge-weighted hops. -/
theorem two_hops (x : (⟨2, ![N, C]⟩ : Shape).Idx → EReal) (j : (⟨2, ![N, C]⟩ : Shape).Idx) :
    hopP S src dis (fun q : (⟨2, ![N, C]⟩ : Shape).Idx => dis (q 0) * hopP S src dis x q) j * dis (j 0)
      = hopW S src dst dis (hopW S src dst dis x) j := by
  rw [hopP_mul S src dst dis hdst hdis]
  exact congrArg (fun f => hopW S src dst dis f j) (funext fun q => mul_hopP S src dst dis hdst hdis x q)

end

end Cert.Lib.Hops

end
-- ==== Proof.KernelIs.lean ====
/-
  What the kernel's windows read, in the graph's terms.

  The program that launches the kernel builds the same edge columns and the same factors as the reference does, so its
  propagation step is the pre-scaled hop of the graph's data: the rows, each already scaled by its own node's factor, are
  looked up at the edges' start numbers and summed into the rows of the end numbers. The kernel's first window therefore
  reads two pre-scaled hops with one end-node scaling between them, and its second window the factors as a column.
-/
import proofs.«158561_j87582973100260_2_alg».proof.Proof.KernelHost
import proofs.«158561_j87582973100260_2_alg».proof.Proof.Graph
import proofs.«158561_j87582973100260_2_alg».proof.Proof.LibHops

noncomputable section

namespace Cert.KernelIs

open Idealize.ShloMosaic Idealize.ShloMosaic.ValueIdx Cert.KernelIdeal Gen Cert.KernelHost Cert.Graph Cert.Lib.Rows

/-- Both programs build the same column of end numbers … -/
theorem colColumn_eq (ei : EdgeList) : colColumn ei = colI ei := rfl
/-- … the same column of wrapped start numbers … -/
theorem rowColumn_eq (ei : EdgeList) : rowColumn ei = rowI ei := rfl
/-- … and the same factors. -/
theorem factor_eq (ei : EdgeList) : factor (F := Ideal) ei = Cert.ReferenceIdeal.ReadP.val_main_v14 (F := Ideal) ei := rfl

/-- The factors repeated along the rows, at `(i, k)`: the factor of node `i`. -/
theorem factorRows_apply (ei : EdgeList) (i : Fin 100000) (k : Fin 64) : factorRows (F := Ideal) ei (ix2 i k) = dis ei i := by
  unfold factorRows
  refine (broadcastInDim_apply _ bcast_S100000x1_S100000x64_0_1 _ (ix2 i k) (ix2 i (0 : Fin 1)) (fun a => ?_)).trans ?_
  · match a with
    | ⟨0, _⟩ => show i.val = if (100000 : Nat) = 1 then 0 else i.val; rw [if_neg (by decide)]
    | ⟨1, _⟩ => show (0 : Nat) = if (1 : Nat) = 1 then 0 else k.val; rw [if_pos rfl]
  · refine (broadcastInDim_apply _ bcast_S100000_S100000x1_0 _ (ix2 i (0 : Fin 1)) (ix1 i) (fun a => ?_)).trans ?_
    · match a with
      | ⟨0, _⟩ => show i.val = if (100000 : Nat) = 1 then 0 else i.val; rw [if_neg (by decide)]
    · exact congrFun (factor_eq ei) (ix1 i)

/-- The factors as a column, at `(i, 0)`: the factor of node `i`. -/
theorem factorColumn_apply (ei : EdgeList) (i : Fin 100000) : factorColumn (F := Ideal) ei (ix2 i (0 : Fin 1)) = dis ei i := by
  unfold factorColumn
  refine (shapeCast_apply _ shapeCasts_S100000_S100000x1 (ix2 i (0 : Fin 1)) (ix1 i) ?_).trans
    (congrFun (factor_eq ei) (ix1 i))
  rewrite [Shape.rowMajor_val_two, Shape.rowMajor_val_one]
  show i.val = i.val * 1 + 0
  omega

/-- The program's record of a propagation step's sum is a sum of rows into `[N, 64]` at an `[E, 1]` column … -/
theorem sum_dims : scatter_S100000x64_S1700000x1_S1700000x64_1_0_0_1
    = scatterRowsDims 100000 1700000 64 (scatter_S100000x64_S1700000x1_S1700000x64_1_0_0_1).wf := rfl

/-- … and its record of the row look-up a gather of rows of `[N, 64]` at an `[E, 1]` column. -/
theorem look_dims : gather_S100000x64_S1700000x1_S1700000x64_1_0_n_n_0_1_164
    = gatherRowsDims 100000 1700000 64 (gather_S100000x64_S1700000x1_S1700000x64_1_0_n_n_0_1_164).wf := rfl

/-- The propagation step with the records and columns named as the graph names them. -/
theorem spread_def (ei : EdgeList) (p : FVec Ideal S100000x64 .f32) :
    spread ei p = Ideal.hostScatterAdd
      (scatterRowsDims 100000 1700000 64 (scatter_S100000x64_S1700000x1_S1700000x64_1_0_0_1).wf)
      (broadcastInDim S100000x64 ![] bcast_S_S100000x64
        (constant (F := Ideal) S_ .f32 0x00000000#32)) (colI ei)
      (Host.gather (gatherRowsDims 100000 1700000 64 (gather_S100000x64_S1700000x1_S1700000x64_1_0_n_n_0_1_164).wf)
        p (rowI ei)) := rfl

/-- A PROPAGATION STEP of rows scaled by their own factors is the pre-scaled hop. -/
theorem spread_eq (ei : EdgeList) (h : FVec Ideal S100000x64 .f32) :
    spread ei (mulf (factorRows (F := Ideal) ei) h) = Cert.Lib.Hops.hopP (ends ei) (src ei) (dis ei) h := by
  funext j
  obtain ⟨i, k, rfl⟩ : ∃ (i : Fin 100000) (k : Fin 64), j = ix2 i k := ⟨j 0, j 1, eq_ix2 j⟩
  refine (congrFun (spread_def ei _) (ix2 i k)).trans ?_
  refine (scatterAddRows_apply (scatter_S100000x64_S1700000x1_S1700000x64_1_0_0_1).wf (colI ei) k _ _ i).trans ?_
  refine Eq.trans ?_ (Cert.Lib.Hops.hopP_ix2 (ends ei) (src ei) (dis ei) h i k).symm
  refine congrArg₂ (· + ·) ?_ (Finset.sum_congr rfl fun e _ => ?_)
  · exact (broadcastInDim_apply _ bcast_S_S100000x64 _ (ix2 i k) ix0 (fun a => a.elim0)).trans
      Cert.Lib.EdgeSum.ofBits_zero
  · refine (gatherRows_apply (by norm_num) _ (mulf (factorRows (F := Ideal) ei) h) (rowI ei) e k).trans ?_
    rw [mulf_apply]
    exact congrArg (· * h (ix2 (src ei e) k)) (factorRows_apply ei (src ei e) k)

/-- THE KERNEL'S FIRST WINDOW: pre-scale, hop, scale by the end node's and the next start node's factor, hop. -/
theorem aggregated_eq (x : FVec Ideal S100000x64 .f32) (ei : EdgeList) :
    aggregated x ei = Cert.Lib.Hops.hopP (ends ei) (src ei) (dis ei)
      (fun q : (⟨2, ![100000, 64]⟩ : Shape).Idx => dis ei (q 0) * Cert.Lib.Hops.hopP (ends ei) (src ei) (dis ei) x q) := by
  unfold aggregated
  rw [spread_eq, spread_eq]
  refine congrArg (Cert.Lib.Hops.hopP (ends ei) (src ei) (dis ei)) (funext fun q => ?_)
  obtain ⟨i, k, rfl⟩ : ∃ (i : Fin 100000) (k : Fin 64), q = ix2 i k := ⟨q 0, q 1, eq_ix2 q⟩
  rw [mulf_apply, factorRows_apply]

end Cert.KernelIs

end
-- ==== Proof.KernelValue.lean ====
/-
  From the kernel's blocks to its whole result array.

  The grid has 20 points; point `t` reads rows `5000 t … 5000 t + 4999` of the aggregated features and of the factor
  column, the whole weight matrix and bias, and writes rows `5000 t … 5000 t + 4999` of the result. Entry `(p, q)` of the
  block written at `t` is the body's arithmetic on row `r = 5000 t + p`:
  `max ((∑ k, (agg (r, k) * dis r) * W (q, k)) + b q) 0` — the dense layer with the rectifier on the rows `agg (r, ·) * dis r`.
  The 20 blocks tile the array (row `r` lies in the block of point `r / 5000`), so the array ends holding that function
  at every index; and with the last end-node factor applied the rows are two edge-weighted hops of the features.
-/
import proofs.«158561_j87582973100260_2_alg».proof.Proof.Gen.KernelIdeal.Value
import proofs.«158561_j87582973100260_2_alg».proof.Proof.KernelBody
import proofs.«158561_j87582973100260_2_alg».proof.Proof.KernelIs

noncomputable section

namespace Cert.KernelValue

open Idealize.ShloMosaic Idealize.ShloMosaic.TcCoe Idealize.SL.Sem Idealize.ShloMosaic.ValueIdx
open Cert.KernelIdeal Cert.KernelIdeal.Gen Cert.Graph
open Idealize.ShloMosaic.Pipeline (Dat)

/-- What the launching program and the kernel compute together, as one function of the argument arrays. -/
def kernelResult (x : FVec Ideal S100000x64 .f32) (W : FVec Ideal S64x64 .f32) (b : FVec Ideal S64 .f32) (ei : EdgeList) :
    FVec Ideal S100000x64 .f32 :=
  Cert.Lib.Hops.dense (fun q : (⟨2, ![100000, 64]⟩ : Shape).Idx => Cert.KernelHost.aggregated x ei q * dis ei (q 0)) W b

/-- It is the edge-weighted network: two hops, the dense layer, the rectifier. -/
theorem kernelResult_eq (x : FVec Ideal S100000x64 .f32) (W : FVec Ideal S64x64 .f32) (b : FVec Ideal S64 .f32) (ei : EdgeList) :
    kernelResult x W b ei
      = Cert.Lib.Hops.dense (Cert.Lib.Hops.hopW (ends ei) (src ei) (dst ei) (dis ei) (Cert.Lib.Hops.hopW (ends ei) (src ei) (dst ei) (dis ei) x)) W b := by
  unfold kernelResult
  rw [Cert.KernelIs.aggregated_eq]
  exact congrArg (fun a => Cert.Lib.Hops.dense a W b)
    (funext fun q => Cert.Lib.Hops.two_hops (ends ei) (src ei) (dst ei) (dis ei) (dst_of_mem ei) (dis_ok ei) x q)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 20 points: the row windows are at block `t`, the weights and bias at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 ∧ t.val < 20 :=
  (by decide +kernel : ∀ t : Fin grid0.N, _)

/-- The array behind the kernel's first window is the aggregated features … -/
theorem features_array (c : Dev nD) :
    (V m c (Pipeline.arrRef spec0 0) : S100000x64.Idx → EReal)
      = Cert.KernelHost.aggregated (F := Ideal) (m ((c : Thread nD τ).loc main_arg0)) (m ((c : Thread nD τ).loc main_arg3)) :=
  Cert.KernelHost.V_aggregated m c

/-- … and the array behind its second window the factors as a column. -/
theorem factor_array (c : Dev nD) :
    (V m c (Pipeline.arrRef spec0 1) : S100000x1.Idx → EReal)
      = Cert.KernelHost.factorColumn (F := Ideal) (m ((c : Thread nD τ).loc main_arg3)) :=
  Cert.KernelHost.V_factorColumn m c

/-- Row `p` of the features block at point `t` is row `5000 t + p` of the aggregated features. -/
theorem features_block (c : Dev nD) (t : Fin cfg0.N) (p : Fin 5000) (k : Fin 64) (r : Fin 100000) (hr : r.val = t.val * 5000 + p.val) :
    (iblk m c 0 t : Vec Ideal S5000x64 .f32) (ix2 p k)
      = Cert.KernelHost.aggregated (F := Ideal) (m ((c : Thread nD τ).loc main_arg0)) (m ((c : Thread nD τ).loc main_arg3)) (ix2 r k) := by
  obtain ⟨e00, e01, -⟩ := idx_facts t
  unfold iblk
  rw [View.read_apply]
  refine (cast_eq _ _).trans ?_
  refine (congrFun (features_array m c) _).trans ?_
  refine congrArg (Cert.KernelHost.aggregated (F := Ideal) _ _) (funext fun a => Fin.ext ?_)
  match a with
  | ⟨0, _⟩ => show win0_0.index t 0 * 5000 + 1 * p.val = r.val; rw [e00, hr]; omega
  | ⟨1, _⟩ => show win0_0.index t 1 * 64 + 1 * k.val = k.val; rw [e01]; omega

/-- Row `p` of the factor block at point `t` is the factor of node `5000 t + p`. -/
theorem factor_block (c : Dev nD) (t : Fin cfg0.N) (p : Fin 5000) (r : Fin 100000) (hr : r.val = t.val * 5000 + p.val) :
    (iblk m c 1 t : Vec Ideal S5000x1 .f32) (ix2 p (0 : Fin 1)) = dis (m ((c : Thread nD τ).loc main_arg3)) r := by
  obtain ⟨-, -, e10, e11, -⟩ := idx_facts t
  unfold iblk
  rw [View.read_apply]
  refine (cast_eq _ _).trans ?_
  refine (congrFun (factor_array m c) _).trans ?_
  refine Eq.trans ?_ (Cert.KernelIs.factorColumn_apply _ r)
  refine congrArg (Cert.KernelHost.factorColumn (F := Ideal) _) (funext fun a => Fin.ext ?_)
  match a with
  | ⟨0, _⟩ => show win0_1.index t 0 * 5000 + 1 * p.val = r.val; rw [e10, hr]; omega
  | ⟨1, _⟩ => show win0_1.index t 1 * 1 + 1 * 0 = 0; rw [e11]

/-- The weights block at every point is the weight matrix. -/
theorem weights_block (c : Dev nD) (t : Fin cfg0.N) (q k : Fin 64) :
    (iblk m c 2 t : Vec Ideal S64x64 .f32) (ix2 q k) = m ((c : Thread nD τ).loc main_arg1) (ix2 q k) := by
  obtain ⟨-, -, -, -, e20, e21, -⟩ := idx_facts t
  unfold iblk
  rw [View.read_apply]
  refine Eq.trans (b := V m c main_arg1 (ix2 q k)) ?_ (congrFun (V_main_arg1 m c) (ix2 q k))
  show V m c main_arg1 _ = V m c main_arg1 _
  refine congrArg (V m c main_arg1) (funext fun a => Fin.ext ?_)
  match a with
  | ⟨0, _⟩ => show win0_2.index t 0 * 64 + 1 * q.val = q.val; rw [e20]; omega
  | ⟨1, _⟩ => show win0_2.index t 1 * 64 + 1 * k.val = k.val; rw [e21]; omega

/-- The bias block at every point is the bias. -/
theorem bias_block (c : Dev nD) (t : Fin cfg0.N) (q : Fin 64) :
    (iblk m c 3 t : Vec Ideal S64 .f32) (ix1 q) = m ((c : Thread nD τ).loc main_arg2) (ix1 q) := by
  obtain ⟨-, -, -, -, -, -, e30, -⟩ := idx_facts t
  unfold iblk
  rw [View.read_apply]
  refine Eq.trans (b := V m c main_arg2 (ix1 q)) ?_ (congrFun (V_main_arg2 m c) (ix1 q))
  show V m c main_arg2 _ = V m c main_arg2 _
  refine congrArg (V m c main_arg2) (funext fun a => Fin.ext ?_)
  match a with
  | ⟨0, _⟩ => show win0_3.index t 0 * 64 + 1 * q.val = q.val; rw [e30]; omega

/-- Entry `(p, q)` of the result block of point `t` sits at `(5000 t + p, q)` of the result array. -/
theorem result_block_index (t : Fin cfg0.N) (p : Fin 5000) (q : Fin 64) (r : Fin 100000) (hr : r.val = t.val * 5000 + p.val) :
    ((cfg0.win 4).blk t).view.emb (ix2 p q) = (ix2 r q : S100000x64.Idx) := by
  obtain ⟨-, -, -, -, -, -, -, e40, e41, -⟩ := idx_facts t
  funext a
  apply Fin.ext
  match a with
  | ⟨0, _⟩ => show win0_4.index t 0 * 5000 + 1 * p.val = r.val; rw [e40, hr]; omega
  | ⟨1, _⟩ => show win0_4.index t 1 * 64 + 1 * q.val = q.val; rw [e41]; omega

/-- The body's value on the blocks of point `t`, at entry `(p, q)`: `kernelResult` at `(5000 t + p, q)`. -/
theorem payload_at (c : Dev nD) (t : Fin cfg0.N) (p : Fin 5000) (q : Fin 64) (r : Fin 100000) (hr : r.val = t.val * 5000 + p.val) :
    k0_pay1 (iblk m c 0 t) (iblk m c 1 t) (iblk m c 2 t) (iblk m c 3 t) (ix2 p q)
      = kernelResult (m ((c : Thread nD τ).loc main_arg0)) (m ((c : Thread nD τ).loc main_arg1))
          (m ((c : Thread nD τ).loc main_arg2)) (m ((c : Thread nD τ).loc main_arg3)) (ix2 r q) := by
  refine (Cert.KernelBody.payload_apply _ _ _ _ p q).trans ?_
  refine Eq.trans ?_ (Cert.Lib.Hops.dense_ix2 _ _ _ r q).symm
  refine congrArg₂ (fun s v => max (s + v) (0 : EReal)) (Finset.sum_congr rfl fun k _ => ?_) (bias_block m c t q)
  exact congrArg₂ (· * ·) (congrArg₂ (· * ·) (features_block m c t p k r hr) (factor_block m c t p r hr)) (weights_block m c t q k)

/-- WHAT POINT `t` WRITES BACK is block `t` of `kernelResult` of the argument arrays. -/
theorem flushed_eq (c : Dev nD) (t : Fin cfg0.N) :
    (dats m 0 c).flushed 4 t = ((cfg0.win 4).blk t).view.read (Elt Ideal)
      (kernelResult (m ((c : Thread nD τ).loc main_arg0)) (m ((c : Thread nD τ).loc main_arg1))
        (m ((c : Thread nD τ).loc main_arg2)) (m ((c : Thread nD τ).loc main_arg3))) := by
  rw [Cert.KernelIdeal.Value.flushed4]
  unfold out0_4
  rw [View.canon_unit_zero hz2]
  simp only [View.ld_unit_zero (S := S5000x64) hz2, View.ld_unit_zero (S := S5000x1) hz2, View.ld_unit_zero (S := S64x64) hz2,
    View.ld_unit_zero (S := S64) hz1]
  obtain ⟨-, -, -, -, -, -, -, -, -, ht⟩ := idx_facts t
  have hpay := payload_at m c t
  generalize k0_pay1 (iblk m c 0 t) (iblk m c 1 t) (iblk m c 2 t) (iblk m c 3 t) = P at hpay ⊢
  generalize kernelResult (m ((c : Thread nD τ).loc main_arg0)) (m ((c : Thread nD τ).loc main_arg1))
    (m ((c : Thread nD τ).loc main_arg2)) (m ((c : Thread nD τ).loc main_arg3)) = G at hpay ⊢
  refine funext fun (y : S5000x64.Idx) => ?_
  obtain ⟨p, q, rfl⟩ : ∃ (p : Fin 5000) (q : Fin 64), y = ix2 p q := ⟨y 0, y 1, eq_ix2 y⟩
  have hp : p.val < 5000 := p.isLt
  obtain ⟨r, hr⟩ : ∃ r : Fin 100000, r.val = t.val * 5000 + p.val := ⟨⟨t.val * 5000 + p.val, by omega⟩, rfl⟩
  have hx : (cfg0.win 4).xinj (grid0.coords t) (ix2 p q) = (ix2 p q : S5000x64.Idx) := funext fun a => Fin.ext (by
    match a with
    | ⟨0, _⟩ => rfl
    | ⟨1, _⟩ => rfl)
  rw [View.read_apply]
  refine Eq.trans ?_ (cast_eq _ _).symm
  rw [result_block_index t p q r hr]
  refine Eq.trans ?_ (hpay p q r hr)
  exact congrArg P hx

/-- An index of the array is in point `t`'s block iff each coordinate is in the block's range on its axis. -/
theorem mem_blk (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v49).slice (win0_4.rect t)).set ↔ _
  rw [View.set_slice_whole, Rect.mem_set_unit]
  exact Iff.rfl

/-- Every block of 5000 rows is some point's. -/
theorem idx_onto : ∀ q0 : Fin 20, ∃ t : Fin cfg0.N, win0_4.index t = ![q0.val, 0] :=
  (by decide +kernel : ∀ q0 : Fin 20, ∃ t : Fin grid0.N, win0_4.index t = ![q0.val, 0])

/-- The blocks cover the array: row `r` is in the block of point `r / 5000`. -/
theorem cover (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ := idx_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- THE RESULT ARRAY after the run is `kernelResult` of the argument arrays. -/
theorem final (c : Dev nD) : (dats m 0 c).arrAt 4 cfg0.N
    = kernelResult (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) cover

/-- The kernel's run: the result array at `kernelResult` of the arguments, the arguments unchanged. -/
theorem run : θ_run defs (onTc (τ := τ) (main (F := Ideal))) ⟨m, fun _ => 0, ρ⟩ fun r => ∀ c : Dev nD,
      r.2.mem ((c : Thread nD τ).loc main_v49)
        = kernelResult (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelValue

end
-- ==== Proof.RefIs.lean ====
/-
  The reference program, stage by stage, is the edge-weighted network.

  Its weight of edge `e` is the product of the factors looked up at the edge's start and end numbers. One hop looks up, for
  every edge, the row of the features at the start number, scales it by the edge's weight, and sums the scaled rows into
  the rows of the edges' end numbers (onto zeros). After two hops the rows go through the dense layer `· Wᵀ + b` and
  the rectifier.
-/
import proofs.«158561_j87582973100260_2_alg».proof.Proof.Graph
import proofs.«158561_j87582973100260_2_alg».proof.Proof.LibHops

noncomputable section

namespace Cert.RefIs

open Idealize.ShloMosaic Idealize.ShloMosaic.ValueIdx Cert.ReferenceIdeal Cert.ReferenceIdeal.ReadP Cert.Lib.Rows Cert.Graph

/-- The program's record of a hop's sum is a sum of rows into `[N, 64]` at an `[E, 1]` column of node numbers. -/
theorem sum_dims : scatter_S100000x64_S1700000x1_S1700000x64_1_0_0_1
    = scatterRowsDims 100000 1700000 64 (scatter_S100000x64_S1700000x1_S1700000x64_1_0_0_1).wf := rfl

/-- Its record of a row look-up is a gather of rows of `[N, 64]` at an `[E, 1]` column. -/
theorem look_dims : gather_S100000x64_S1700000x1_S1700000x64_1_0_n_n_0_1_164
    = gatherRowsDims 100000 1700000 64 (gather_S100000x64_S1700000x1_S1700000x64_1_0_n_n_0_1_164).wf := rfl

/-- Its record of a factor look-up is a gather of elements of `[N]` at an `[E, 1]` column. -/
theorem lookElt_dims : gather_S100000_S1700000x1_S1700000_n_0_n_n_0_1_1
    = gatherEltsDims 100000 1700000 (gather_S100000_S1700000x1_S1700000_n_0_n_n_0_1_1).wf := rfl

/-- The factors looked up at the start numbers. -/
theorem startFactor_def (ei : EdgeList) : val_main_v21 (F := Ideal) ei
    = Host.gather (gatherEltsDims 100000 1700000 (gather_S100000_S1700000x1_S1700000_n_0_n_n_0_1_1).wf)
        (val_main_v14 (F := Ideal) ei) (rowI ei) := rfl

/-- The factors looked up at the end numbers. -/
theorem endFactor_def (ei : EdgeList) : val_main_v28 (F := Ideal) ei
    = Host.gather (gatherEltsDims 100000 1700000 (gather_S100000_S1700000x1_S1700000_n_0_n_n_0_1_1).wf)
        (val_main_v14 (F := Ideal) ei) (colW ei) := rfl

/-- THE WEIGHT OF AN EDGE: the factor of its start node times the factor of its end node. -/
theorem weight_apply (ei : EdgeList) (e : Fin 1700000) :
    val_main_v29 (F := Ideal) ei (ix1 e) = dis ei (src ei e) * dis ei (dst ei e) := by
  rw [val_main_v29_apply, Ideal.mulf_def]
  exact congrArg₂ (· * ·)
    ((congrFun (startFactor_def ei) (ix1 e)).trans (gatherElts_apply (by norm_num) _ (val_main_v14 (F := Ideal) ei) (rowI ei) e))
    ((congrFun (endFactor_def ei) (ix1 e)).trans (gatherElts_apply (by norm_num) _ (val_main_v14 (F := Ideal) ei) (colW ei) e))

/-- The weights repeated along each row of an `[E, 64]` table. -/
theorem weightRows_apply (ei : EdgeList) (e : Fin 1700000) (k : Fin 64) :
    val_main_v38 (F := Ideal) ei (ix2 e k) = dis ei (src ei e) * dis ei (dst ei e) := by
  have e1 : idx_main_v38 (ix2 e k) = ix2 e (0 : Fin 1) := funext fun a => match a with
    | ⟨0, _⟩ => rfl
    | ⟨1, _⟩ => rfl
  have e2 : idx_main_v30 (ix2 e (0 : Fin 1)) = ix1 e := funext fun a => match a with
    | ⟨0, _⟩ => rfl
  rw [val_main_v38_apply, e1, val_main_v30_apply, e2, weight_apply]

/-- One hop of the reference, on any features. -/
def hop (ei : EdgeList) (h : FVec Ideal S100000x64 .f32) : FVec Ideal S100000x64 .f32 :=
  Ideal.hostScatterAdd (scatterRowsDims 100000 1700000 64 (scatter_S100000x64_S1700000x1_S1700000x64_1_0_0_1).wf)
    (val_main_v40 (F := Ideal)) (colI ei)
    (mulf (val_main_v38 (F := Ideal) ei)
      (Host.gather (gatherRowsDims 100000 1700000 64 (gather_S100000x64_S1700000x1_S1700000x64_1_0_n_n_0_1_164).wf) h (rowI ei)))

theorem hop1_def (x : FVec Ideal S100000x64 .f32) (ei : EdgeList) : val_main_v42 (F := Ideal) x ei = hop ei x := rfl

theorem hop2_def (x : FVec Ideal S100000x64 .f32) (ei : EdgeList) :
    val_main_v55 (F := Ideal) x ei = hop ei (val_main_v42 (F := Ideal) x ei) := rfl

/-- A HOP IS THE EDGE-WEIGHTED HOP of the graph's data. -/
theorem hop_eq (ei : EdgeList) (h : FVec Ideal S100000x64 .f32) :
    hop ei h = Cert.Lib.Hops.hopW (ends ei) (src ei) (dst ei) (dis ei) h := by
  funext j
  obtain ⟨i, k, rfl⟩ : ∃ (i : Fin 100000) (k : Fin 64), j = ix2 i k := ⟨j 0, j 1, eq_ix2 j⟩
  refine (scatterAddRows_apply (scatter_S100000x64_S1700000x1_S1700000x64_1_0_0_1).wf (colI ei) k (val_main_v40 (F := Ideal)) _ i).trans ?_
  refine Eq.trans ?_ (Cert.Lib.Hops.hopW_ix2 (ends ei) (src ei) (dst ei) (dis ei) h i k).symm
  refine congrArg₂ (· + ·) ?_ (Finset.sum_congr rfl fun e _ => ?_)
  · rw [val_main_v40_apply, val_main_cst_8_apply, Ideal.ofBits_def, Cert.Lib.EdgeSum.ofBits_zero]
  · rw [mulf_apply]
    exact congrArg₂ (· * ·) (weightRows_apply ei e k) (gatherRows_apply (by norm_num) _ h (rowI ei) e k)

/-- THE REFERENCE'S RESULT: two edge-weighted hops, the dense layer, the rectifier. -/
theorem result_eq (x : FVec Ideal S100000x64 .f32) (W : FVec Ideal S64x64 .f32) (b : FVec Ideal S64 .f32) (ei : EdgeList) :
    val_main_v61 (F := Ideal) x W b ei
      = Cert.Lib.Hops.dense (Cert.Lib.Hops.hopW (ends ei) (src ei) (dst ei) (dis ei) (Cert.Lib.Hops.hopW (ends ei) (src ei) (dst ei) (dis ei) x)) W b := by
  funext j
  obtain ⟨i, o, rfl⟩ : ∃ (i : Fin 100000) (o : Fin 64), j = ix2 i o := ⟨j 0, j 1, eq_ix2 j⟩
  rw [Cert.Lib.Hops.dense_ix2, ← hop_eq, ← hop_eq]
  have eb : idx_main_v58 (idx_main_v59 (ix2 i o)) = ix1 o := funext fun a => match a with
    | ⟨0, _⟩ => rfl
  have el : ∀ k : Fin 64, lidx_main_v57 (ix2 i o) k = ix2 i k := fun k => funext fun a => match a with
    | ⟨0, _⟩ => rfl
    | ⟨1, _⟩ => rfl
  have er : ∀ k : Fin 64, idx_main_v56 (ridx_main_v57 (ix2 i o) k) = ix2 o k := fun k => funext fun a => match a with
    | ⟨0, _⟩ => rfl
    | ⟨1, _⟩ => rfl
  rw [val_main_v61_apply, val_main_v60_apply, val_main_v57_apply, val_main_v59_apply, val_main_v58_apply, eb,
    val_main_call1_v0_apply, val_main_call1_cst_apply, Ideal.ofBits_def, Cert.Lib.EdgeSum.ofBits_zero, Ideal.maximumf_def, Ideal.addf_def, hop2_def, hop1_def]
  refine congrArg (fun s => max (s + b (ix1 o)) 0) (Finset.sum_congr rfl fun k _ => ?_)
  rw [val_main_v56_apply, el, er]

end Cert.RefIs

end
-- ==== Proof.lean ====
/- The five claims of this certificate.

   Both programs compute a two-hop graph convolution with symmetric degree normalisation, a dense layer `· Wᵀ + b` and a
   rectifier, over the edge list with one self-loop per node appended. The reference weights every edge by the product
   of its two end nodes' factors `1 / √degree` and sums the weighted rows of the start nodes into the end nodes. The
   kernel's program scales every row by its own node's factor before an edge looks it up, sums, and scales the sum by
   the end node's factor afterwards — the last such scaling inside the kernel, fused with the dense layer. For the edges
   summed into a node the end node is that node itself, so its factor is common to the whole sum, and a nonnegative
   extended real other than `⊤` may be moved across a sum of extended reals: the two programs agree on every input, finite
   or not, and the precondition is never opened.

   The three frames are the generated ones (the reference's is its run with the result dropped); no rewrite was applied by
   the ideal pass, so `preserves` is `True`. -/
import proofs.«158561_j87582973100260_2_alg».proof.Defs
import proofs.«158561_j87582973100260_2_alg».proof.Proof.Gen.Kernel
import proofs.«158561_j87582973100260_2_alg».proof.Proof.Gen.Kernel.Skeleton
import proofs.«158561_j87582973100260_2_alg».proof.Proof.Gen.Kernel.Launch
import proofs.«158561_j87582973100260_2_alg».proof.Proof.Gen.Kernel.Points
import proofs.«158561_j87582973100260_2_alg».proof.Proof.Gen.Kernel.Frame
import proofs.«158561_j87582973100260_2_alg».proof.Proof.Gen.KernelIdeal
import proofs.«158561_j87582973100260_2_alg».proof.Proof.Gen.KernelIdeal.Skeleton
import proofs.«158561_j87582973100260_2_alg».proof.Proof.Gen.KernelIdeal.Launch
import proofs.«158561_j87582973100260_2_alg».proof.Proof.Gen.KernelIdeal.Points
import proofs.«158561_j87582973100260_2_alg».proof.Proof.Gen.KernelIdeal.Frame
import proofs.«158561_j87582973100260_2_alg».proof.Proof.Gen.ReferenceIdeal
import proofs.«158561_j87582973100260_2_alg».proof.Proof.Gen.Pre_finite_inputs
import proofs.«158561_j87582973100260_2_alg».proof.Proof.Gen.KernelIdeal.Value
import proofs.«158561_j87582973100260_2_alg».proof.Proof.KernelValue
import proofs.«158561_j87582973100260_2_alg».proof.Proof.RefIs
import Idealize.ShloMosaic.Adequacy
import Idealize.ShloMosaic.Init

noncomputable section

namespace Cert.Proof

open Idealize.ShloMosaic Idealize.SL.Sem Cert.Kernel

theorem frame_p : Cert.frame_Kernel := fun m ρ _ => Cert.Kernel.Gen.frame m ρ

theorem frame_pi : Cert.frame_KernelIdeal := fun m ρ _ => Cert.KernelIdeal.Gen.frame m ρ

/-- The reference has no kernel: its frame is its run, read back, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Run from memories that agree on the arguments, the kernel's program leaves the pre-scaled network's value in its
    result array and the reference the edge-weighted network's: one function of the arguments. -/
theorem algebraic : Cert.algebraic_KernelIdeal_ReferenceIdeal := by
  intro m ρ m' ρ' _ hagree
  refine ⟨_, Cert.KernelValue.run m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.ReadP.val_main_v61_eq m' c).trans ?_
  rw [(hagree c).1, (hagree c).2.1, (hagree c).2.2.1, (hagree c).2.2.2]
  exact (Cert.RefIs.result_eq _ _ _ _).trans (Cert.KernelValue.kernelResult_eq _ _ _ _).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
